-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024x256 : Shape := ⟨3, ![32, 1024, 256]⟩
abbrev S256x256 : Shape := ⟨2, ![256, 256]⟩
abbrev S256 : Shape := ⟨1, ![256]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x1024x256 : S_.BroadcastsInDim S32x1024x256 (![] : Fin 0 → Fin S32x1024x256.rank)
  reducesTo_S32x1024x256_S_d0_1_2 : S32x1024x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S32x1024x1024 .f32) (main_arg1 : FVec F S32x1024x256 .f32) (main_arg2 : FVec F S256x256 .f32) (main_arg3 : FVec F S256 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S32x1024x1024 : Shape := ⟨3, ![32, 1024, 1024]⟩
abbrev S32x1024x256 : Shape := ⟨3, ![32, 1024, 256]⟩
abbrev S256x256 : Shape := ⟨2, ![256, 256]⟩
abbrev S256 : Shape := ⟨1, ![256]⟩
abbrev S1x1024x256 : Shape := ⟨3, ![1, 1024, 256]⟩
abbrev S1x1024x1024 : Shape := ⟨3, ![1, 1024, 1024]⟩
abbrev S1024x256 : Shape := ⟨2, ![1024, 256]⟩
abbrev S1024x1024 : Shape := ⟨2, ![1024, 1024]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S32x1024x1024, .f32⟩
  | .hbm, ⟨1, _⟩ => ⟨S32x1024x256, .f32⟩
  | .hbm, ⟨2, _⟩ => ⟨S256x256, .f32⟩
  | .hbm, ⟨3, _⟩ => ⟨S256, .f32⟩
  | .hbm, ⟨4, _⟩ => ⟨S32x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .f32⟩
  | .local _ .vmem, ⟨3, _⟩ => ⟨S1x1024x1024, .f32⟩
  | .local _ .vmem, ⟨4, _⟩ => ⟨S1x1024x1024, .f32⟩
  | .local _ .vmem, ⟨5, _⟩ => ⟨S256, .f32⟩
  | .local _ .vmem, ⟨6, _⟩ => ⟨S1x1024x256, .f32⟩
  | .local _ .vmem, ⟨7, _⟩ => ⟨S1x1024x256, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x1024x1024.size a
  hwx0_2 : ∀ i : grid0.Coords, EltTy.bits .f32 = 32 ∨ (Rect.block (s := S32x1024x1024) S1x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S32x1024x256.size a
  hwx0_4 : ∀ i : grid0.Coords, EltTy.bits .f32 = 32 ∨ (Rect.block (s := S32x1024x256) S1x1024x256.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg1) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x1024x256 : Shape := ⟨3, ![32, 1024, 256]⟩
abbrev S256x256 : Shape := ⟨2, ![256, 256]⟩
abbrev S256 : Shape := ⟨1, ![256]⟩
abbrev S1x1x256 : Shape := ⟨3, ![1, 1, 256]⟩

abbrev nBuf : Space → Nat
  | .hbm => 9
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x256, .f32⟩
  | .hbm, ⟨2, _⟩ => ⟨S256x256, .f32⟩
  | .hbm, ⟨3, _⟩ => ⟨S256, .f32⟩
  | .hbm, ⟨4, _⟩ => ⟨S32x1024x256, .f32⟩
  | .hbm, ⟨5, _⟩ => ⟨S32x1024x256, .f32⟩
  | .hbm, ⟨6, _⟩ => ⟨S1x1x256, .f32⟩
  | .hbm, ⟨7, _⟩ => ⟨S32x1024x256, .f32⟩
  | .hbm, ⟨8, _⟩ => ⟨S32x1024x256, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  dot_S32x1024x256_S256x256_S32x1024x256_2_0_01_1_n_n_wf : DotDims.WF S32x1024x256 S256x256 S32x1024x256 [2] [0] [0, 1] [1] [] []
  dot_S32x1024x1024_S32x1024x256_S32x1024x256_2_1_1_2_0_0_wf : DotDims.WF S32x1024x1024 S32x1024x256 S32x1024x256 [2] [1] [1] [2] [0] [0]

variable [Facts₀]

def dot_S32x1024x256_S256x256_S32x1024x256_2_0_01_1_n_n : DotDims S32x1024x256 S256x256 S32x1024x256 where
  lhsContracting := [2]
  rhsContracting := [0]
  lhsNonContracting := [0, 1]
  rhsNonContracting := [1]
  lhsBatch := []
  rhsBatch := []
  wf := dot_S32x1024x256_S256x256_S32x1024x256_2_0_01_1_n_n_wf
def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf

class Facts : Prop extends Facts₀ where

variable [Facts]
-- ==== Proof.Spec.lean ====
/-
  One graph-convolution layer over the extended reals, for 32 graphs on 1024 nodes, 256 input and 256 output features:
  each node's features are projected by the weight matrix, the projections of a node's neighbours are summed with the
  adjacency weights, and the bias is added —
    out(b, n, o) = Σ_m A(b, n, m) · (Σ_i X(b, m, i) · W(i, o)) + β(o).
  Both nested sums are written in exactly this order; no law of arithmetic is used to rearrange them.
-/
import Idealize.ShloMosaic.Lib.ValueIdx
import Idealize.ShloMosaic.PureOps.Ideal

noncomputable section

open scoped BigOperators

namespace Cert.Gcn

open Idealize.ShloMosaic Idealize.ShloMosaic.ValueIdx

/-- The adjacency weights: 32 graphs, 1024 by 1024. -/
abbrev SAdj : Shape := ⟨3, ![32, 1024, 1024]⟩
/-- The node features, and the layer's output: 32 graphs, 1024 nodes, 256 features. -/
abbrev SFeat : Shape := ⟨3, ![32, 1024, 256]⟩
/-- The weight matrix: 256 input features by 256 output features. -/
abbrev SWeight : Shape := ⟨2, ![256, 256]⟩
/-- The bias: one entry per output feature. -/
abbrev SBias : Shape := ⟨1, ![256]⟩

/-- The projected features of node `m` of graph `b` at output feature `o`: `(X W)(b, m, o) = Σ_i X(b, m, i) · W(i, o)`. -/
def support (X : FVec Ideal SFeat .f32) (W : FVec Ideal SWeight .f32) (b : Fin 32) (m : Fin 1024) (o : Fin 256) : EReal :=
  ∑ i : Fin 256, X (ix3 b m i) * W (ix2 i o)

/-- The layer's output at `(b, n, o)`: the neighbours' projected features weighted by row `n` of graph `b`'s adjacency
    matrix and summed, plus the bias of output feature `o`. -/
def gcn (A : FVec Ideal SAdj .f32) (X : FVec Ideal SFeat .f32) (W : FVec Ideal SWeight .f32) (β : FVec Ideal SBias .f32) :
    FVec Ideal SFeat .f32 :=
  fun j => (∑ m : Fin 1024, A (ix3 (j 0) (j 1) m) * support X W (j 0) m (j 2)) + β (ix1 (j 2))

/-- The output at an index given by its three coordinates. -/
theorem gcn_apply (A : FVec Ideal SAdj .f32) (X : FVec Ideal SFeat .f32) (W : FVec Ideal SWeight .f32) (β : FVec Ideal SBias .f32)
    (b : Fin 32) (n : Fin 1024) (o : Fin 256) :
    gcn A X W β (ix3 b n o) = (∑ m : Fin 1024, A (ix3 b n m) * ∑ i : Fin 256, X (ix3 b m i) * W (ix2 i o)) + β (ix1 o) := rfl

end Cert.Gcn

end
-- ==== Proof.RefIsSpec.lean ====
/-
  The reference computes the graph-convolution layer of Spec.lean: its first contraction is the projection
  `X W` (the feature axis of `X` against the rows of `W`), its second, batched over the graphs, contracts the adjacency
  matrix's columns with the projection's nodes, and the bias, broadcast along graphs and nodes, is added last. Read at an
  index each stage is the corresponding sum of Spec.lean, term by term.
-/
import proofs.«101932_j71811853189638_2_alg».proof.Proof.Gen.ReferenceIdeal.Read
import proofs.«101932_j71811853189638_2_alg».proof.Proof.Spec

noncomputable section

open scoped BigOperators

namespace Cert.Gcn.Reference

open Cert.ReferenceIdeal Cert.ReferenceIdeal.Read Idealize.ShloMosaic Idealize.ShloMosaic.ValueIdx

/-- The reference's result, as a function of its four arguments, is the layer's output. -/
theorem reference_eq (x0 : (⟨S32x1024x1024, .f32⟩ : BufTy).Contents (Elt Ideal)) (x1 : (⟨S32x1024x256, .f32⟩ : BufTy).Contents (Elt Ideal))
    (x2 : (⟨S256x256, .f32⟩ : BufTy).Contents (Elt Ideal)) (x3 : (⟨S256, .f32⟩ : BufTy).Contents (Elt Ideal)) :
    val_main_v4 (F := Ideal) x0 x1 x2 x3 = gcn x0 x1 x2 x3 := by
  funext i
  -- the adjacency entry of the outer sum's term `m`: row `(i 0, i 1)`, column `m`
  have eA : ∀ m : Fin 1024, lidx_main_v1 i m = ix3 (i 0) (i 1) m := fun m => funext fun a => by
    match a with | ⟨0, _⟩ => rfl | ⟨1, _⟩ => rfl | ⟨2, _⟩ => rfl
  -- the feature entry of the inner sum's term `k` under the outer term `m`: node `m` of graph `i 0`, input feature `k`
  have eX : ∀ (m : Fin 1024) (k : Fin 256), lidx_main_v0 (ridx_main_v1 i m) k = ix3 (i 0) m k := fun m k => funext fun a => by
    match a with | ⟨0, _⟩ => rfl | ⟨1, _⟩ => rfl | ⟨2, _⟩ => rfl
  -- the weight entry: input feature `k`, output feature `i 2`
  have eW : ∀ (m : Fin 1024) (k : Fin 256), ridx_main_v0 (ridx_main_v1 i m) k = ix2 k (i 2) := fun m k => funext fun a => by
    match a with | ⟨0, _⟩ => rfl | ⟨1, _⟩ => rfl
  -- the bias entry: output feature `i 2`
  have eβ : idx_main_v2 (idx_main_v3 i) = ix1 (i 2) := funext fun a => by
    match a with | ⟨0, _⟩ => rfl
  rw [val_main_v4_apply, val_main_v1_apply, val_main_v3_apply, val_main_v2_apply]
  simp only [val_main_v0_apply, eA, eX, eW, eβ, Ideal.addf_def]
  rfl

end Cert.Gcn.Reference

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.Body.lean ====
/-
  What the kernel's body computes for one graph, read at an index. The body holds the graph's feature slab `[1, 1024, 256]`,
  the weight matrix, the graph's adjacency slab `[1, 1024, 1024]` and the bias; it drops the slabs' unit axis, multiplies
  features by weights into a zero accumulator, multiplies the adjacency matrix by that product into a second zero
  accumulator, adds the bias laid out as one row repeated over the 1024 nodes, and puts the unit axis back. Over the
  extended reals a change of float format is the identity and a zero accumulator adds nothing, so at `(u, n, o)` the
  result is Σ_m A(0, n, m) · (Σ_i X(0, m, i) · W(i, o)) + β(o).
-/
import proofs.«101932_j71811853189638_2_alg».proof.Proof.Gen.KernelIdeal.Skeleton
import proofs.«101932_j71811853189638_2_alg».proof.Proof.LibMatmulNN
import Idealize.ShloMosaic.Lib.ValueLayout

noncomputable section

open scoped BigOperators

namespace Cert.Gcn.Body

open Cert.KernelIdeal Cert.KernelIdeal.Gen Idealize.ShloMosaic Idealize.ShloMosaic.ValueIdx

/-- The body's stored value at `(u, n, o)`, from the four loaded blocks: the adjacency row `n` against the projected
    features' column `o`, plus the bias at `o`. -/
theorem body_apply (x : Vec Ideal S1x1024x256 .f32) (w : Vec Ideal S256x256 .f32) (a : Vec Ideal S1x1024x1024 .f32) (β : Vec Ideal S256 .f32)
    (u : Fin 1) (n : Fin 1024) (o : Fin 256) :
    k0_pay1 (F := Ideal) x w a β (ix3 u n o)
      = (∑ m : Fin 1024, a (ix3 (0 : Fin 1) n m) * ∑ i : Fin 256, x (ix3 (0 : Fin 1) m i) * w (ix2 i o)) + β (ix1 o) := by
  unfold k0_pay1
  rw [shapeCast_ab_1ab_apply, addf_apply, Cert.LibMatmulNN.matmul_nn_apply _ rfl rfl rfl rfl rfl rfl,
    broadcastTo_1b_ab_apply, shapeCast_a_1a_apply]
  congr 1
  refine Finset.sum_congr rfl fun m _ => ?_
  rw [truncf_apply, shapeCast_1ab_ab_apply, truncf_apply, Cert.LibMatmulNN.matmul_nn_apply _ rfl rfl rfl rfl rfl rfl]
  congr 1
  refine Finset.sum_congr rfl fun i _ => ?_
  rw [truncf_apply, shapeCast_1ab_ab_apply, truncf_apply]

end Cert.Gcn.Body

end
-- ==== Proof.Blocks.lean ====
/-
  From the kernel's grid to the whole output array. The grid has one point per graph: point `t` holds graph `t`'s feature
  slab and adjacency slab, the whole weight matrix and the whole bias, and writes graph `t`'s slab of the output. What the
  body leaves there (Body.lean) is the layer's output (Spec.lean) restricted to graph `t`, because every entry of the
  slab depends only on graph `t`'s rows of the features and the adjacency weights. The 32 slabs tile the output array — the
  entry `(b, n, o)` lies in the slab of point `b` — so after the run the array is the layer's output everywhere.
-/
import proofs.«101932_j71811853189638_2_alg».proof.Proof.Gen.KernelIdeal.Value
import proofs.«101932_j71811853189638_2_alg».proof.Proof.Body
import proofs.«101932_j71811853189638_2_alg».proof.Proof.Spec

noncomputable section

open scoped BigOperators

namespace Cert.Gcn.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- Where each window's block sits at grid point `t`: the feature, adjacency and output slabs are slab `t` along the graph
    axis and start at the origin of the other two axes; the weight matrix and the bias are taken whole. -/
theorem block_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-- One graph's slab: if the four loaded blocks are graph `g`'s feature and adjacency slabs, the weight matrix and the
    bias, then the body's value at `y` is the layer's output at the entry `j` of graph `g` with `y`'s node and feature. -/
theorem slab_apply (A : FVec Ideal SAdj .f32) (X : FVec Ideal SFeat .f32) (W : FVec Ideal SWeight .f32) (β : FVec Ideal SBias .f32)
    (x : Vec Ideal S1x1024x256 .f32) (w : Vec Ideal S256x256 .f32) (a : Vec Ideal S1x1024x1024 .f32) (b : Vec Ideal S256 .f32)
    (g : Fin 32)
    (hx : ∀ (n : Fin 1024) (i : Fin 256), x (ix3 (0 : Fin 1) n i) = X (ix3 g n i))
    (hw : ∀ (i : Fin 256) (o : Fin 256), w (ix2 i o) = W (ix2 i o))
    (ha : ∀ (n k : Fin 1024), a (ix3 (0 : Fin 1) n k) = A (ix3 g n k))
    (hb : ∀ o : Fin 256, b (ix1 o) = β (ix1 o))
    (y : S1x1024x256.Idx) (j : S32x1024x256.Idx)
    (h0 : (j 0).val = g.val) (h1 : (j 1).val = (y 1).val) (h2 : (j 2).val = (y 2).val) :
    k0_pay1 (F := Ideal) x w a b y = gcn A X W β j := by
  obtain ⟨u, n, o, rfl⟩ : ∃ (u : Fin 1) (n : Fin 1024) (o : Fin 256), y = ix3 u n o := ⟨y 0, y 1, y 2, eq_ix3 y⟩
  have hj : j = ix3 g n o := funext fun d => Fin.ext (by
    match d with
    | ⟨0, _⟩ => exact h0
    | ⟨1, _⟩ => exact h1
    | ⟨2, _⟩ => exact h2)
  subst hj
  rw [Body.body_apply, gcn_apply]
  simp only [hx, hw, ha, hb]

/-- WHAT POINT `t` WRITES BACK is slab `t` of the layer's output of the argument arrays as the region finds them. -/
theorem flushed_eq (c : Dev nD) (t : Fin cfg0.N) :
    (dats m 0 c).flushed 4 t
      = ((cfg0.win 4).blk t).view.read (Elt Ideal) (gcn (V m c main_arg0) (V m c main_arg1) (V m c main_arg2) (V m c main_arg3)) := by
  rw [Value.flushed4]
  unfold out0_4
  rw [View.canon_unit_zero zero3]
  simp only [View.ld_unit_zero (S := S1x1024x256) zero3, View.ld_unit_zero (S := S256x256) zero2,
    View.ld_unit_zero (S := S1x1024x1024) zero3, View.ld_unit_zero (S := S256) zero1]
  obtain ⟨e00, e01, e02, e10, e11, e20, e21, e22, e30, e40, e41, e42⟩ := block_index t
  have ht : t.val < 32 := t.isLt
  funext y
  show k0_pay1 (F := Ideal) (iblk m c 0 t) (iblk m c 1 t) (iblk m c 2 t) (iblk m c 3 t) y
    = gcn (V m c main_arg0) (V m c main_arg1) (V m c main_arg2) (V m c main_arg3) (((cfg0.win 4).blk t).view.emb y)
  refine slab_apply (V m c main_arg0) (V m c main_arg1) (V m c main_arg2) (V m c main_arg3)
    (iblk m c 0 t) (iblk m c 1 t) (iblk m c 2 t) (iblk m c 3 t) ⟨t.val, ht⟩ ?_ ?_ ?_ ?_ y (((cfg0.win 4).blk t).view.emb y) ?_ ?_ ?_
  · intro n i
    show V m c main_arg1 (((cfg0.win 0).blk t).view.emb (ix3 (0 : Fin 1) n i)) = V m c main_arg1 (ix3 ⟨t.val, ht⟩ n i)
    refine congrArg _ (funext fun d => Fin.ext ?_)
    match d with
    | ⟨0, _⟩ => show win0_0.index t (0 : Fin 3) * 1 + 1 * 0 = t.val; omega
    | ⟨1, _⟩ => show win0_0.index t (1 : Fin 3) * 1024 + 1 * n.val = n.val; omega
    | ⟨2, _⟩ => show win0_0.index t (2 : Fin 3) * 256 + 1 * i.val = i.val; omega
  · intro i o
    show V m c main_arg2 (((cfg0.win 1).blk t).view.emb (ix2 i o)) = V m c main_arg2 (ix2 i o)
    refine congrArg _ (funext fun d => Fin.ext ?_)
    match d with
    | ⟨0, _⟩ => show win0_1.index t (0 : Fin 2) * 256 + 1 * i.val = i.val; omega
    | ⟨1, _⟩ => show win0_1.index t (1 : Fin 2) * 256 + 1 * o.val = o.val; omega
  · intro n k
    show V m c main_arg0 (((cfg0.win 2).blk t).view.emb (ix3 (0 : Fin 1) n k)) = V m c main_arg0 (ix3 ⟨t.val, ht⟩ n k)
    refine congrArg _ (funext fun d => Fin.ext ?_)
    match d with
    | ⟨0, _⟩ => show win0_2.index t (0 : Fin 3) * 1 + 1 * 0 = t.val; omega
    | ⟨1, _⟩ => show win0_2.index t (1 : Fin 3) * 1024 + 1 * n.val = n.val; omega
    | ⟨2, _⟩ => show win0_2.index t (2 : Fin 3) * 1024 + 1 * k.val = k.val; omega
  · intro o
    show V m c main_arg3 (((cfg0.win 3).blk t).view.emb (ix1 o)) = V m c main_arg3 (ix1 o)
    refine congrArg _ (funext fun d => Fin.ext ?_)
    match d with
    | ⟨0, _⟩ => show win0_3.index t (0 : Fin 1) * 256 + 1 * o.val = o.val; omega
  · show win0_4.index t (0 : Fin 3) * 1 + 1 * (y 0).val = t.val
    have hy : (y 0).val < 1 := (y 0).isLt
    omega
  · show win0_4.index t (1 : Fin 3) * 1024 + 1 * (y 1).val = (y 1).val
    omega
  · show win0_4.index t (2 : Fin 3) * 256 + 1 * (y 2).val = (y 2).val
    omega

/-- An entry of the output array is in point `t`'s slab iff each coordinate is in the slab's range on its axis. -/
theorem mem_slab (t : Fin cfg0.N) (i : S32x1024x256.Idx) :
    i ∈ ((cfg0.win 4).blk t).view.set ↔ ∀ a : Fin 3, win0_4.index t a * S1x1024x256.size a ≤ (i a).val
      ∧ (i a).val < win0_4.index t a * S1x1024x256.size a + S1x1024x256.size a := by
  show i ∈ ((View.whole main_v0).slice (win0_4.rect t)).set ↔ _
  rw [View.set_slice_whole, Rect.mem_set_unit]
  exact Iff.rfl

/-- THE SLABS TILE THE ARRAY: the entry `(b, n, o)` lies in the slab of the point `b`. -/
theorem cover (i : S32x1024x256.Idx) : ∃ t : Fin cfg0.N, (cfg0.win 4).flush t = true ∧ i ∈ ((cfg0.win 4).blk t).view.set := by
  have hi0 : (i 0).val < 32 := (i 0).isLt
  have hi1 : (i 1).val < 1024 := (i 1).isLt
  have hi2 : (i 2).val < 256 := (i 2).isLt
  obtain ⟨_, _, _, _, _, _, _, _, _, e40, e41, e42⟩ := block_index ⟨(i 0).val, hi0⟩
  have e40' : win0_4.index ⟨(i 0).val, hi0⟩ (0 : Fin 3) = (i 0).val := e40
  refine ⟨⟨(i 0).val, hi0⟩, flush0_4 _, ?_⟩
  rw [mem_slab]
  intro a
  match a with
  | ⟨0, _⟩ =>
    show win0_4.index ⟨(i 0).val, hi0⟩ (0 : Fin 3) * 1 ≤ (i 0).val ∧ (i 0).val < win0_4.index ⟨(i 0).val, hi0⟩ (0 : Fin 3) * 1 + 1
    omega
  | ⟨1, _⟩ =>
    show win0_4.index ⟨(i 0).val, hi0⟩ (1 : Fin 3) * 1024 ≤ (i 1).val ∧ (i 1).val < win0_4.index ⟨(i 0).val, hi0⟩ (1 : Fin 3) * 1024 + 1024
    omega
  | ⟨2, _⟩ =>
    show win0_4.index ⟨(i 0).val, hi0⟩ (2 : Fin 3) * 256 ≤ (i 2).val ∧ (i 2).val < win0_4.index ⟨(i 0).val, hi0⟩ (2 : Fin 3) * 256 + 256
    omega

/-- THE ARRAY after the run is the layer's output of the argument arrays. -/
theorem final (c : Dev nD) :
    (dats m 0 c).arrAt 4 cfg0.N = gcn (V m c main_arg0) (V m c main_arg1) (V m c main_arg2) (V m c main_arg3) :=
  (dats m 0 c).arrAt_eq_of_cover 4 _ (fun t _ => flushed_eq m c t) cover

/-- The kernel's run: every weakly fair execution ends with the result array at the layer's output of the argument arrays,
    and the arguments unchanged. -/
theorem run : θ_run defs (onTc (τ := τ) (main (F := Ideal))) ⟨m, fun _ => 0, ρ⟩ fun r => ∀ c : Dev nD,
      r.2.mem ((c : Thread nD τ).loc main_v0)
        = gcn (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Gcn.Blocks

end
-- ==== Proof.lean ====
/-
  A graph-convolution layer, kernel against reference, over the extended reals.
  The kernel runs one grid point per graph: it multiplies the graph's features by the weight matrix, multiplies the graph's
  adjacency matrix by that product, and adds the bias; the reference does the same with two contractions over the whole
  batch and a broadcast bias. Over the extended reals a change of float format is the identity and a zero accumulator adds
  nothing, so both end at
      out(b, n, o) = Σ_m A(b, n, m) · (Σ_i X(b, m, i) · W(i, o)) + β(o),
  with the two sums nested in the same order on both sides: no rearrangement, hence no use of the inputs' finiteness.
  Spec.lean states this function; RefIsSpec.lean reads the reference's stages at an index and finds it; Body.lean reads the
  kernel body's stored value at an index; Blocks.lean goes from the per-graph slabs to the whole output array. Here the
  five claims are assembled: the three runs (each program terminates without fault, its arguments unchanged), the
  idealization (nothing was rewritten, so nothing to preserve), and the equality of the two results.
-/
import proofs.«101932_j71811853189638_2_alg».proof.Defs
import proofs.«101932_j71811853189638_2_alg».proof.Proof.Gen.Kernel
import proofs.«101932_j71811853189638_2_alg».proof.Proof.Gen.Kernel.Skeleton
import proofs.«101932_j71811853189638_2_alg».proof.Proof.Gen.Kernel.Launch
import proofs.«101932_j71811853189638_2_alg».proof.Proof.Gen.Kernel.Points
import proofs.«101932_j71811853189638_2_alg».proof.Proof.Gen.Kernel.Frame
import proofs.«101932_j71811853189638_2_alg».proof.Proof.Gen.KernelIdeal
import proofs.«101932_j71811853189638_2_alg».proof.Proof.Gen.KernelIdeal.Skeleton
import proofs.«101932_j71811853189638_2_alg».proof.Proof.Gen.KernelIdeal.Launch
import proofs.«101932_j71811853189638_2_alg».proof.Proof.Gen.KernelIdeal.Points
import proofs.«101932_j71811853189638_2_alg».proof.Proof.Gen.KernelIdeal.Frame
import proofs.«101932_j71811853189638_2_alg».proof.Proof.Gen.ReferenceIdeal
import proofs.«101932_j71811853189638_2_alg».proof.Proof.Gen.Pre_finite_inputs
import proofs.«101932_j71811853189638_2_alg».proof.Proof.Gen.KernelIdeal.Value
import proofs.«101932_j71811853189638_2_alg».proof.Proof.Gen.ReferenceIdeal.Run
import proofs.«101932_j71811853189638_2_alg».proof.Proof.Gen.ReferenceIdeal.Read
import proofs.«101932_j71811853189638_2_alg».proof.Proof.Spec
import proofs.«101932_j71811853189638_2_alg».proof.Proof.RefIsSpec
import proofs.«101932_j71811853189638_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : @Cert.frame_Kernel Cert.Kernel.Gen.facts Cert.Pre_finite_inputs.Gen.facts :=
  fun m ρ _ => Cert.Kernel.Gen.frame m ρ

/-- So does the kernel read over the extended reals. -/
theorem frame_kernelIdeal : @Cert.frame_KernelIdeal Cert.KernelIdeal.Gen.facts Cert.Pre_finite_inputs.Gen.facts :=
  fun m ρ _ => Cert.KernelIdeal.Gen.frame m ρ

/-- And the reference: its run with the result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the four arguments, the kernel's result array and the reference's both end at the
    layer's output of those arguments: the kernel's by its slabs tiling the array, the reference's stage by stage. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.Gcn.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.Gcn.Reference.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
